-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2048x5632 : S_.BroadcastsInDim S8x2048x5632 (![] : Fin 0 → Fin S8x2048x5632.rank)
  reducesTo_S8x2048x5632_S_d0_1_2 : S8x2048x5632.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x5632x2048 1) : IVec S_ 1 :=
  let main_c_5 : IVec S_ 1 := constantI S_ 1 1#1
  let main_v17 : IVec S_ 1 := (fun x v => Host.reduce IntOp.andi x v reducesTo_S8x5632x2048_S_d0_1_2 h_S_) main_v16 main_c_5
  let main_v18 : IVec S_ 1 := andi main_v13 main_v17
  main_v18

def fn {F : FTy → Type} [FloatOps F] (main_arg0 : FVec F S8x1024x2048 .f32) (main_arg1 : FVec F S8x2048x5632 .f32) (main_arg2 : FVec F S8x2048x5632 .f32) (main_arg3 : FVec F S8x5632x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2048x5632 .f32 := Host.absf main_arg1
  let main_cst_0 : FVec F S_ .f32 := constant S_ .f32 0x7F800000#32
  let main_v5 : FVec F S8x2048x5632 .f32 := broadcastInDim S8x2048x5632 ![] bcast_S_S8x2048x5632 main_cst_0
  let main_v6 : IVec S8x2048x5632 1 := cmpf .olt main_v4 main_v5
  let main_c_1 : IVec S_ 1 := constantI S_ 1 1#1
  let main_v7 : IVec S_ 1 := (fun x v => Host.reduce IntOp.andi x v reducesTo_S8x2048x5632_S_d0_1_2 h_S_) main_v6 main_c_1
  let main_v8 : IVec S_ 1 := andi main_v3 main_v7
  let main_v9 : FVec F S8x2048x5632 .f32 := Host.absf main_arg2
  let main_cst_2 : FVec F S_ .f32 := constant S_ .f32 0x7F800000#32
  let main_v10 : FVec F S8x2048x5632 .f32 := broadcastInDim S8x2048x5632 ![] bcast_S_S8x2048x5632 main_cst_2
  let main_v11 : IVec S8x2048x5632 1 := cmpf .olt main_v9 main_v10
  let main_c_3 : IVec S_ 1 := constantI S_ 1 1#1
  let main_v12 : IVec S_ 1 := (fun x v => Host.reduce IntOp.andi x v reducesTo_S8x2048x5632_S_d0_1_2 h_S_) main_v11 main_c_3
  let main_v13 : IVec S_ 1 := andi main_v8 main_v12
  let main_v14 : FVec F S8x5632x2048 .f32 := Host.absf main_arg3
  let main_cst_4 : FVec F S_ .f32 := constant S_ .f32 0x7F800000#32
  let main_v15 : FVec F S8x5632x2048 .f32 := broadcastInDim S8x5632x2048 ![] bcast_S_S8x5632x2048 main_cst_4
  let main_v16 : IVec S8x5632x2048 1 := cmpf .olt main_v14 main_v15
  fn_part1 (F := F) main_v13 main_v16
-- ==== Kernel.lean ====
abbrev S8x1024x2048 : Shape := ⟨3, ![8, 1024, 2048]⟩
abbrev S8x2048x5632 : Shape := ⟨3, ![8, 2048, 5632]⟩
abbrev S8x5632x2048 : Shape := ⟨3, ![8, 5632, 2048]⟩
abbrev S1x1024x2048 : Shape := ⟨3, ![1, 1024, 2048]⟩
abbrev S1x2048x128 : Shape := ⟨3, ![1, 2048, 128]⟩
abbrev S1x128x2048 : Shape := ⟨3, ![1, 128, 2048]⟩
abbrev S1024x2048 : Shape := ⟨2, ![1024, 2048]⟩
abbrev S2048x128 : Shape := ⟨2, ![2048, 128]⟩
abbrev S1024x128 : Shape := ⟨2, ![1024, 128]⟩
abbrev S128x2048 : Shape := ⟨2, ![128, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8x1024x2048, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S8x1024x2048, .f32⟩
  | .local _ .vmem, ⟨0, _⟩ => ⟨S1x1024x2048, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x128x2048, .f32⟩
  | .local _ .vmem, ⟨6, _⟩ => ⟨S1x128x2048, .f32⟩
  | .local _ .vmem, ⟨7, _⟩ => ⟨S1x1024x2048, .f32⟩
  | .local _ .vmem, ⟨8, _⟩ => ⟨S1x1024x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 44], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x5632.size a
  hwx0_1 : ∀ i : grid0.Coords, EltTy.bits .f32 = 32 ∨ (Rect.block (s := S8x2048x5632) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x5632.size a
  hwx0_2 : ∀ i : grid0.Coords, EltTy.bits .f32 = 32 ∨ (Rect.block (s := S8x2048x5632) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x5632x2048.size a
  hwx0_3 : ∀ i : grid0.Coords, EltTy.bits .f32 = 32 ∨ (Rect.block (s := S8x5632x2048) S1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x1024x2048.size a
  hwx0_4 : ∀ i : grid0.Coords, EltTy.bits .f32 = 32 ∨ (Rect.block (s := S8x1024x2048) S1x1024x2048.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1x1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x2048x5632 : Shape := ⟨3, ![8, 2048, 5632]⟩
abbrev S8x5632x2048 : Shape := ⟨3, ![8, 5632, 2048]⟩
abbrev S8x1024x5632 : Shape := ⟨3, ![8, 1024, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S8x1024x5632, .f32⟩
  | .hbm, ⟨5, _⟩ => ⟨S8x1024x5632, .f32⟩
  | .hbm, ⟨6, _⟩ => ⟨S8x1024x5632, .f32⟩
  | .hbm, ⟨7, _⟩ => ⟨S8x1024x5632, .f32⟩
  | .hbm, ⟨8, _⟩ => ⟨S_, .f32⟩
  | .hbm, ⟨9, _⟩ => ⟨S8x1024x5632, .f32⟩
  | .hbm, ⟨10, _⟩ => ⟨S8x1024x5632, .f32⟩
  | .hbm, ⟨11, _⟩ => ⟨S_, .f32⟩
  | .hbm, ⟨12, _⟩ => ⟨S8x1024x5632, .f32⟩
  | .hbm, ⟨13, _⟩ => ⟨S8x1024x5632, .f32⟩
  | .hbm, ⟨14, _⟩ => ⟨S8x1024x5632, .f32⟩
  | .hbm, ⟨15, _⟩ => ⟨S8x1024x5632, .f32⟩
  | .hbm, ⟨16, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x1024x5632 : S_.BroadcastsInDim S8x1024x5632 (![] : Fin 0 → Fin S8x1024x5632.rank)
  dot_S8x1024x2048_S8x2048x5632_S8x1024x5632_2_1_1_2_0_0_wf : DotDims.WF S8x1024x2048 S8x2048x5632 S8x1024x5632 [2] [1] [1] [2] [0] [0]
  dot_S8x1024x5632_S8x5632x2048_S8x1024x2048_2_1_1_2_0_0_wf : DotDims.WF S8x1024x5632 S8x5632x2048 S8x1024x2048 [2] [1] [1] [2] [0] [0]

variable [Facts₀]

def dot_S8x1024x2048_S8x2048x5632_S8x1024x5632_2_1_1_2_0_0 : DotDims S8x1024x2048 S8x2048x5632 S8x1024x5632 where
  lhsContracting := [2]
  rhsContracting := [1]
  lhsNonContracting := [1]
  rhsNonContracting := [2]
  lhsBatch := [0]
  rhsBatch := [0]
  wf := dot_S8x1024x2048_S8x2048x5632_S8x1024x5632_2_1_1_2_0_0_wf
def dot_S8x1024x5632_S8x5632x2048_S8x1024x2048_2_1_1_2_0_0 : DotDims S8x1024x5632 S8x5632x2048 S8x1024x2048 where
  lhsContracting := [2]
  rhsContracting := [1]
  lhsNonContracting := [1]
  rhsNonContracting := [2]
  lhsBatch := [0]
  rhsBatch := [0]
  wf := dot_S8x1024x5632_S8x5632x2048_S8x1024x2048_2_1_1_2_0_0_wf

class Facts : Prop extends Facts₀ where

variable [Facts]
-- ==== Proof.SwiGluSpec.lean ====
/-
  The mathematics of a per-expert gated feed-forward layer, stated once over the extended reals and independent of either
  program.  For expert `e`, token `t` and hidden unit `h` the two up-projections are
  `y₁ = Σ_k X[e,t,k]·W₁[e,k,h]` and `y₂ = Σ_k X[e,t,k]·W₂[e,k,h]`, the gated activation is `(y₁ · σ(y₁)) · y₂`
  with `σ` the logistic function, and the output is `Σ_h act[e,t,h]·W₃[e,h,d]`.  A sum over the 5632 hidden units is also
  the sum, over 44 consecutive slabs of 128 units, of the slabs' partial sums: addition of extended reals is commutative
  and associative, so the regrouping needs no finiteness.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SwiGlu

/-- The gate: `(y₁ · σ(y₁)) · y₂`. -/
def gate (y1 y2 : EReal) : EReal := (y1 * Ideal.logistic y1) * y2

/-- The gated activation of expert `e`, token `t`, hidden unit `h`, from the whole arrays. -/
def hidden (X : (⟨3, ![8, 1024, 2048]⟩ : Shape).Idx → EReal) (W1 W2 : (⟨3, ![8, 2048, 5632]⟩ : Shape).Idx → EReal)
    (e : Fin 8) (t : Fin 1024) (h : Fin 5632) : EReal :=
  gate (∑ k : Fin 2048, X (ix3 e t k) * W1 (ix3 e k h)) (∑ k : Fin 2048, X (ix3 e t k) * W2 (ix3 e k h))

/-- The layer's output, index by index: the down-projection of the gated activations. -/
def ffn (X : (⟨3, ![8, 1024, 2048]⟩ : Shape).Idx → EReal) (W1 W2 : (⟨3, ![8, 2048, 5632]⟩ : Shape).Idx → EReal)
    (W3 : (⟨3, ![8, 5632, 2048]⟩ : Shape).Idx → EReal) : (⟨3, ![8, 1024, 2048]⟩ : Shape).Idx → EReal :=
  fun i => ∑ h : Fin 5632, hidden X W1 W2 (i 0) (i 1) h * W3 (ix3 (i 0) h (i 2))

/-- One slab's contribution, from the slab's own blocks: token rows `x` of one expert ([1,1024,2048]), the 128 columns
    `w1`, `w2` of the up-projections ([1,2048,128]) and the 128 rows `w3` of the down-projection ([1,128,2048]). -/
def slab (x : (⟨3, ![1, 1024, 2048]⟩ : Shape).Idx → EReal) (w1 w2 : (⟨3, ![1, 2048, 128]⟩ : Shape).Idx → EReal)
    (w3 : (⟨3, ![1, 128, 2048]⟩ : Shape).Idx → EReal) (t : Fin 1024) (d : Fin 2048) : EReal :=
  ∑ j : Fin 128, gate (∑ k : Fin 2048, x (ix3 (0 : Fin 1) t k) * w1 (ix3 (0 : Fin 1) k j))
      (∑ k : Fin 2048, x (ix3 (0 : Fin 1) t k) * w2 (ix3 (0 : Fin 1) k j)) * w3 (ix3 (0 : Fin 1) j d)

/-- A sum of `n·b` terms is the sum over `n` consecutive runs of `b` terms of the runs' sums. -/
theorem sum_range_runs {M : Type*} [AddCommMonoid M] (g : ℕ → M) (b : ℕ) :
    ∀ n : ℕ, ∑ h ∈ Finset.range (n * b), g h = ∑ s ∈ Finset.range n, ∑ j ∈ Finset.range b, g (b * s + j)
  | 0 => by simp
  | n + 1 => by
    rw [Nat.succ_mul, Finset.sum_range_add, sum_range_runs g b n, Finset.sum_range_succ, Nat.mul_comm n b]

/-- The 5632 hidden units as 44 slabs of 128: the whole sum is the sum of the slabs' sums. -/
theorem sum_hidden_slabs {M : Type*} [AddCommMonoid M] (g : ℕ → M) :
    ∑ h : Fin 5632, g h.val = ∑ s ∈ Finset.range 44, ∑ j : Fin 128, g (128 * s + j.val) := by
  rw [Fin.sum_univ_eq_sum_range g 5632, show (5632 : ℕ) = 44 * 128 from rfl, sum_range_runs g 128 44]
  exact Finset.sum_congr rfl fun s _ => (Fin.sum_univ_eq_sum_range (fun j => g (128 * s + j)) 128).symm

end Cert.SwiGlu

end
-- ==== Proof.SlabTerm.lean ====
/-
  One grid point's arithmetic, read at an index over the exact extended reals.  The body adds to the expert's running
  [1,1024,2048] accumulator the product of the gated activations of the point's 128 hidden units (a [1024,128] matrix,
  itself built from two [1024,2048]×[2048,128] products of the token rows with the point's columns of the two
  up-projections) with the point's 128 rows of the down-projection.  Over the extended reals the roundings to bf16 are the
  identity and each matrix product into a zero accumulator is the plain sum over its contracted axis, so the value stored
  at `(0, t, d)` is the accumulator there plus the slab's contribution `Cert.SwiGlu.slab`; the value stored when the
  accumulator is reset is `0` everywhere.
-/
import proofs.«134888_j30545807409458_2_alg».proof.Proof.Gen.KernelIdeal.Skeleton
import proofs.«134888_j30545807409458_2_alg».proof.Proof.SwiGluSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Slab

open Cert.KernelIdeal Cert.KernelIdeal.Gen Idealize.ShloMosaic Idealize.ShloMosaic.ValueIdx

/-! ## The two matrix products' operand indices: rows × contraction, contraction × columns -/

theorem up_lhs0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
theorem up_lhs1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem up_rhs0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem up_rhs1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- An up-projection's product into the zero accumulator, at `(t, j)`: the sum over the 2048 model coordinates. -/
theorem up_apply (l : FVec Ideal S1024x2048 .bf16) (r : FVec Ideal S2048x128 .bf16) (t : Fin 1024) (j : Fin 128) :
    matmul dot_S1024x2048_S2048x128_S1024x128_1_0_0_1_n_n none l r (constant S1024x128 .f32 0x00000000#32) (ix2 t j)
      = ∑ k : Fin 2048, l (ix2 t k) * r (ix2 k j) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 t j) ((contrEquiv1 dot_S1024x2048_S2048x128_S1024x128_1_0_0_1_n_n 2048 rfl rfl).symm k) = ix2 t k :=
    funext fun a => Fin.ext (by
      match a with
      | ⟨0, _⟩ => exact up_lhs0 _ _
      | ⟨1, _⟩ => exact (up_lhs1 _ _).trans hk)
  have er : dot_S1024x2048_S2048x128_S1024x128_1_0_0_1_n_n.rhsIdx (ix2 t j) ((contrEquiv1 dot_S1024x2048_S2048x128_S1024x128_1_0_0_1_n_n 2048 rfl rfl).symm k) = ix2 k j :=
    funext fun a => Fin.ext (by
      match a with
      | ⟨0, _⟩ => exact (up_rhs0 _ _).trans hk
      | ⟨1, _⟩ => exact up_rhs1 _ _)
  rw [el, er]

theorem down_lhs0 (i : S1024x2048.Idx) (q : dot_S1024x128_S128x2048_S1024x2048_1_0_0_1_n_n.contr.Idx) : (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
theorem down_lhs1 (i : S1024x2048.Idx) (q : dot_S1024x128_S128x2048_S1024x2048_1_0_0_1_n_n.contr.Idx) : (dot_S1024x128_S128x2048_S1024x2048_1_0_0_1_n_n.lhsIdx i q 1).val = (q ⟨0, by decide⟩).val :=
  dot_S1024x128_S128x2048_S1024x2048_1_0_0_1_n_n.lhsIdx_val_of_single rfl i q
theorem down_rhs0 (i : S1024x2048.Idx) (q : dot_S1024x128_S128x2048_S1024x2048_1_0_0_1_n_n.contr.Idx) : (dot_S1024x128_S128x2048_S1024x2048_1_0_0_1_n_n.rhsIdx i q 0).val = (q ⟨0, by decide⟩).val :=
  dot_S1024x128_S128x2048_S1024x2048_1_0_0_1_n_n.rhsIdx_val_of_single rfl i q
theorem down_rhs1 (i : S1024x2048.Idx) (q : dot_S1024x128_S128x2048_S1024x2048_1_0_0_1_n_n.contr.Idx) : (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- The down-projection's product into the zero accumulator, at `(t, d)`: the sum over the slab's 128 hidden units. -/
theorem down_apply (l : FVec Ideal S1024x128 .bf16) (r : FVec Ideal S128x2048 .bf16) (t : Fin 1024) (j : Fin 2048) :
    matmul dot_S1024x128_S128x2048_S1024x2048_1_0_0_1_n_n none l r (constant S1024x2048 .f32 0x00000000#32) (ix2 t j)
      = ∑ k : Fin 128, l (ix2 t k) * r (ix2 k j) := by
  simp only [matmul]
  rw [Ideal.matmul_constant_zero_apply, ← Equiv.sum_comp (contrEquiv1 dot_S1024x128_S128x2048_S1024x2048_1_0_0_1_n_n 128 rfl rfl).symm]
  refine Finset.sum_congr rfl fun k _ => ?_
  have hk := contrEquiv1_symm_val dot_S1024x128_S128x2048_S1024x2048_1_0_0_1_n_n 128 rfl rfl k
  have el : dot_S1024x128_S128x2048_S1024x2048_1_0_0_1_n_n.lhsIdx (ix2 t j) ((contrEquiv1 dot_S1024x128_S128x2048_S1024x2048_1_0_0_1_n_n 128 rfl rfl).symm k) = ix2 t k :=
    funext fun a => Fin.ext (by
      match a with
      | ⟨0, _⟩ => exact down_lhs0 _ _
      | ⟨1, _⟩ => exact (down_lhs1 _ _).trans hk)
  have er : dot_S1024x128_S128x2048_S1024x2048_1_0_0_1_n_n.rhsIdx (ix2 t j) ((contrEquiv1 dot_S1024x128_S128x2048_S1024x2048_1_0_0_1_n_n 128 rfl rfl).symm k) = ix2 k j :=
    funext fun a => Fin.ext (by
      match a with
      | ⟨0, _⟩ => exact (down_rhs0 _ _).trans hk
      | ⟨1, _⟩ => exact down_rhs1 _ _)
  rw [el, er]

/-! ## The stored values at an index -/

/-- The lane-by-lane logistic function, at an index. -/
theorem logistic_apply {s : Shape} {φ : FTy} (v : FVec Ideal s φ) (i : s.Idx) : logistic v i = Ideal.logistic (v i) := rfl

/-- The reset stores zero everywhere. -/
theorem reset_apply (i : S1x1024x2048.Idx) : k0_pay1 (F := Ideal) i = 0 := by
  obtain ⟨u, t, d, rfl⟩ : ∃ (u : Fin 1) (t : Fin 1024) (d : Fin 2048), i = ix3 u t d := ⟨i 0, i 1, i 2, eq_ix3 i⟩
  unfold k0_pay1
  rw [shapeCast_ab_1ab_apply]
  exact Ideal.ofBits_zero_f32

/-- The accumulating store at `(0, t, d)`: what the accumulator held there plus the slab's contribution. -/
theorem step_apply (x : Vec Ideal S1x1024x2048 .f32) (w1 w2 : Vec Ideal S1x2048x128 .f32) (w3 : Vec Ideal S1x128x2048 .f32)
    (acc : Vec Ideal S1x1024x2048 .f32) (u : Fin 1) (t : Fin 1024) (d : Fin 2048) :
    k0_pay2 (F := Ideal) x w1 w2 w3 acc (ix3 u t d) = acc (ix3 u t d) + Cert.SwiGlu.slab x w1 w2 w3 t d := by
  obtain rfl : u = 0 := Subsingleton.elim _ _
  unfold k0_pay2
  rw [shapeCast_ab_1ab_apply, addf_apply, shapeCast_1ab_ab_apply, down_apply]
  unfold Cert.SwiGlu.slab Cert.SwiGlu.gate
  refine congrArg (acc (ix3 0 t d) + ·) (Finset.sum_congr rfl fun j _ => ?_)
  rw [truncf_apply, truncf_apply, mulf_apply, mulf_apply, logistic_apply, up_apply, up_apply, shapeCast_1ab_ab_apply]
  simp only [truncf_apply, shapeCast_1ab_ab_apply]

end Cert.KernelIdeal.Slab

end
-- ==== Proof.KernelFfn.lean ====
/-
  The kernel's result array is the gated feed-forward layer of its arguments.  Expert `e`'s output block is produced by the
  run of the 44 grid points `44e … 44e + 43`: the first resets the block's accumulator to zero and every point adds its slab's
  contribution, the slab of point `44e + s` being the hidden units `128s … 128s + 127` — its blocks are expert `e`'s token
  rows, columns `128s …` of the two up-projections and rows `128s …` of the down-projection.  So the fold the run leaves
  is `0 + Σ_{s<44} Σ_{j<128} act[e,t,128s+j]·W₃[e,128s+j,d]`, which is the sum over all 5632 hidden units.
-/
import proofs.«134888_j30545807409458_2_alg».proof.Proof.Gen.KernelIdeal.Value
import proofs.«134888_j30545807409458_2_alg».proof.Proof.SlabTerm
import Idealize.ShloMosaic.Lib.Pipeline.Value
import Idealize.ShloMosaic.Lib.ValueIdx

noncomputable section

namespace Cert.KernelIdeal.Ffn

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Which blocks a grid point reads -/

/-- The four input windows' block indices at point `t` = (expert `t / 44`, slab `t % 44`), decided over the grid. -/
theorem block_indices : ∀ t : Fin cfg0.N,
    (win0_0.index t (0 : Fin 3) = t.val / 44 ∧ win0_0.index t (1 : Fin 3) = 0 ∧ win0_0.index t (2 : Fin 3) = 0)
    ∧ (win0_1.index t (0 : Fin 3) = t.val / 44 ∧ win0_1.index t (1 : Fin 3) = 0 ∧ win0_1.index t (2 : Fin 3) = t.val % 44)
    ∧ (win0_2.index t (0 : Fin 3) = t.val / 44 ∧ win0_2.index t (1 : Fin 3) = 0 ∧ win0_2.index t (2 : Fin 3) = t.val % 44)
    ∧ (win0_3.index t (0 : Fin 3) = t.val / 44 ∧ win0_3.index t (1 : Fin 3) = t.val % 44 ∧ win0_3.index t (2 : Fin 3) = 0) :=
  (by decide +kernel : ∀ t : Fin grid0.N, _)

/-- The token block of point `t` is expert `t / 44`'s rows of the first argument. -/
theorem x_read (c : Dev nD) (t : Fin cfg0.N) (e : Fin 8) (he : t.val / 44 = e.val) (u : Fin 1) (r : Fin 1024) (k : Fin 2048) :
    (iblk m c 0 t : Vec Ideal S1x1024x2048 .f32) (ix3 u r k) = m ((c : Thread nD τ).loc main_arg0) (ix3 e r k) := by
  obtain ⟨⟨e0, e1, e2⟩, -⟩ := block_indices t
  have hu := u.isLt
  unfold iblk
  rw [View.read_apply]
  show V m c main_arg0 _ = _
  refine congrArg (m ((c : Thread nD τ).loc main_arg0)) (funext fun a => Fin.ext ?_)
  match a with
  | ⟨0, _⟩ => show win0_0.index t (0 : Fin 3) * 1 + 1 * u.val = e.val; rw [e0]; omega
  | ⟨1, _⟩ => show win0_0.index t (1 : Fin 3) * 1024 + 1 * r.val = r.val; rw [e1]; omega
  | ⟨2, _⟩ => show win0_0.index t (2 : Fin 3) * 2048 + 1 * k.val = k.val; rw [e2]; omega

/-- The first up-projection's block at point `t`: expert `t / 44`, columns `128·(t % 44) …` of the second argument. -/
theorem w1_read (c : Dev nD) (t : Fin cfg0.N) (e : Fin 8) (he : t.val / 44 = e.val) (h : Fin 5632) (j : Fin 128)
    (hh : h.val = 128 * (t.val % 44) + j.val) (u : Fin 1) (k : Fin 2048) :
    (iblk m c 1 t : Vec Ideal S1x2048x128 .f32) (ix3 u k j) = m ((c : Thread nD τ).loc main_arg1) (ix3 e k h) := by
  obtain ⟨-, ⟨e0, e1, e2⟩, -⟩ := block_indices t
  have hu := u.isLt
  unfold iblk
  rw [View.read_apply]
  show V m c main_arg1 _ = _
  refine congrArg (m ((c : Thread nD τ).loc main_arg1)) (funext fun a => Fin.ext ?_)
  match a with
  | ⟨0, _⟩ => show win0_1.index t (0 : Fin 3) * 1 + 1 * u.val = e.val; rw [e0]; omega
  | ⟨1, _⟩ => show win0_1.index t (1 : Fin 3) * 2048 + 1 * k.val = k.val; rw [e1]; omega
  | ⟨2, _⟩ => show win0_1.index t (2 : Fin 3) * 128 + 1 * j.val = h.val; rw [e2]; omega

/-- The second up-projection's block at point `t`: the same columns of the third argument. -/
theorem w2_read (c : Dev nD) (t : Fin cfg0.N) (e : Fin 8) (he : t.val / 44 = e.val) (h : Fin 5632) (j : Fin 128)
    (hh : h.val = 128 * (t.val % 44) + j.val) (u : Fin 1) (k : Fin 2048) :
    (iblk m c 2 t : Vec Ideal S1x2048x128 .f32) (ix3 u k j) = m ((c : Thread nD τ).loc main_arg2) (ix3 e k h) := by
  obtain ⟨-, -, ⟨e0, e1, e2⟩, -⟩ := block_indices t
  have hu := u.isLt
  unfold iblk
  rw [View.read_apply]
  show V m c main_arg2 _ = _
  refine congrArg (m ((c : Thread nD τ).loc main_arg2)) (funext fun a => Fin.ext ?_)
  match a with
  | ⟨0, _⟩ => show win0_2.index t (0 : Fin 3) * 1 + 1 * u.val = e.val; rw [e0]; omega
  | ⟨1, _⟩ => show win0_2.index t (1 : Fin 3) * 2048 + 1 * k.val = k.val; rw [e1]; omega
  | ⟨2, _⟩ => show win0_2.index t (2 : Fin 3) * 128 + 1 * j.val = h.val; rw [e2]; omega

/-- The down-projection's block at point `t`: expert `t / 44`, rows `128·(t % 44) …` of the fourth argument. -/
theorem w3_read (c : Dev nD) (t : Fin cfg0.N) (e : Fin 8) (he : t.val / 44 = e.val) (h : Fin 5632) (j : Fin 128)
    (hh : h.val = 128 * (t.val % 44) + j.val) (u : Fin 1) (d : Fin 2048) :
    (iblk m c 3 t : Vec Ideal S1x128x2048 .f32) (ix3 u j d) = m ((c : Thread nD τ).loc main_arg3) (ix3 e h d) := by
  obtain ⟨-, -, -, e0, e1, e2⟩ := block_indices t
  have hu := u.isLt
  unfold iblk
  rw [View.read_apply]
  show V m c main_arg3 _ = _
  refine congrArg (m ((c : Thread nD τ).loc main_arg3)) (funext fun a => Fin.ext ?_)
  match a with
  | ⟨0, _⟩ => show win0_3.index t (0 : Fin 3) * 1 + 1 * u.val = e.val; rw [e0]; omega
  | ⟨1, _⟩ => show win0_3.index t (1 : Fin 3) * 128 + 1 * j.val = h.val; rw [e1]; omega
  | ⟨2, _⟩ => show win0_3.index t (2 : Fin 3) * 2048 + 1 * d.val = d.val; rw [e2]; omega

/-! ## The run's fold as a sum of the points' contributions -/

/-- What grid point `n` adds to its expert's output block, at the block's index `i` (zero past the grid, where it is
    never read). -/
def addend (c : Dev nD) (n : ℕ) (i : S1x1024x2048.Idx) : EReal :=
  if h : n < cfg0.N then
    Cert.SwiGlu.slab (iblk m c 0 ⟨n, h⟩) (iblk m c 1 ⟨n, h⟩) (iblk m c 2 ⟨n, h⟩) (iblk m c 3 ⟨n, h⟩) (i 1) (i 2)
  else 0

/-- A run's first point leaves zero plus its addend. -/
theorem reset_eq (c : Dev nD) (n : ℕ) (h : n < cfg0.N) (i : S1x1024x2048.Idx) :
    Value.reset4 m c n h i = 0 + addend m c n i := by
  obtain ⟨u, r, d, rfl⟩ : ∃ (u : Fin 1) (r : Fin 1024) (d : Fin 2048), i = ix3 u r d := ⟨i 0, i 1, i 2, eq_ix3 i⟩
  unfold Value.reset4 addend
  rw [dif_pos h]
  refine (Slab.step_apply _ _ _ _ _ u r d).trans ?_
  rw [Slab.reset_apply]

/-- Every later point adds its addend to what the point before left. -/
theorem step_eq (c : Dev nD) (n : ℕ) (h : n < cfg0.N) (acc : Vec Ideal S1x1024x2048 .f32) (i : S1x1024x2048.Idx) :
    Value.step4 m c n h acc i = acc i + addend m c n i := by
  obtain ⟨u, r, d, rfl⟩ : ∃ (u : Fin 1) (r : Fin 1024) (d : Fin 2048), i = ix3 u r d := ⟨i 0, i 1, i 2, eq_ix3 i⟩
  unfold Value.step4 addend
  rw [dif_pos h]
  exact Slab.step_apply _ _ _ _ _ u r d

/-- The fold of expert `e`'s run of 44 points is the sum of their addends. -/
theorem fold_eq (c : Dev nD) (e : Fin 8) (h : 44 * e.val + 43 < cfg0.N) (i : S1x1024x2048.Idx) :
    Pipeline.accAt (Value.reset4 m c) (Value.step4 m c) (44 * e.val) 43 h i
      = ∑ s ∈ Finset.range 44, addend m c (44 * e.val + s) i := by
  rw [Pipeline.accAt_add_apply (Value.reset4 m c) (Value.step4 m c) (fun _ => 0) (addend m c) (44 * e.val) 43
      (fun h i => reset_eq m c _ h i) (fun n h acc i _ _ => step_eq m c n h acc i) 43 le_rfl h i, zero_add]

/-! ## The addends are the slabs of the layer's sum over the hidden units -/

/-- The hidden unit `h`'s summand of the layer's output at `(e, r, d)`, as a function of every natural (zero past the
    hidden width). -/
def summand (c : Dev nD) (e : Fin 8) (r : Fin 1024) (d : Fin 2048) (h : ℕ) : EReal :=
  if hl : h < 5632 then
    Cert.SwiGlu.hidden (m ((c : Thread nD τ).loc main_arg0)) (m ((c : Thread nD τ).loc main_arg1))
        (m ((c : Thread nD τ).loc main_arg2)) e r ⟨h, hl⟩ * m ((c : Thread nD τ).loc main_arg3) (ix3 e ⟨h, hl⟩ d)
  else 0

/-- Point `44e + s`'s addend is the sum of the summands of the hidden units `128s … 128s + 127`. -/
theorem addend_eq (c : Dev nD) (e : Fin 8) (s : ℕ) (hs : s < 44) (u : Fin 1) (r : Fin 1024) (d : Fin 2048) :
    addend m c (44 * e.val + s) (ix3 u r d) = ∑ j : Fin 128, summand m c e r d (128 * s + j.val) := by
  have he := e.isLt
  have hn : 44 * e.val + s < cfg0.N := lt_of_lt_of_eq (by omega) (show 352 = cfg0.N from N_0.symm)
  have hq : (⟨44 * e.val + s, hn⟩ : Fin cfg0.N).val / 44 = e.val := by show (44 * e.val + s) / 44 = e.val; omega
  have hm : (⟨44 * e.val + s, hn⟩ : Fin cfg0.N).val % 44 = s := by show (44 * e.val + s) % 44 = s; omega
  unfold addend
  rw [dif_pos hn]
  unfold Cert.SwiGlu.slab
  refine Finset.sum_congr rfl fun j _ => ?_
  have hj := j.isLt
  have hl : 128 * s + j.val < 5632 := by omega
  have hh : (⟨128 * s + j.val, hl⟩ : Fin 5632).val = 128 * ((⟨44 * e.val + s, hn⟩ : Fin cfg0.N).val % 44) + j.val := by
    rw [hm]
  unfold summand
  rw [dif_pos hl]
  unfold Cert.SwiGlu.hidden
  exact congrArg₂ (· * ·)
    (congrArg₂ Cert.SwiGlu.gate
      (Finset.sum_congr rfl fun k _ => congrArg₂ (· * ·) (x_read m c ⟨_, hn⟩ e hq 0 r k) (w1_read m c ⟨_, hn⟩ e hq ⟨_, hl⟩ j hh 0 k))
      (Finset.sum_congr rfl fun k _ => congrArg₂ (· * ·) (x_read m c ⟨_, hn⟩ e hq 0 r k) (w2_read m c ⟨_, hn⟩ e hq ⟨_, hl⟩ j hh 0 k)))
    (w3_read m c ⟨_, hn⟩ e hq ⟨_, hl⟩ j hh 0 d)

/-! ## The result array -/

/-- The layer's output of the kernel's four arguments. -/
abbrev result (c : Dev nD) : Buf (Elt Ideal) ((c : Thread nD τ).loc main_v0) :=
  Cert.SwiGlu.ffn (m ((c : Thread nD τ).loc main_arg0)) (m ((c : Thread nD τ).loc main_arg1))
    (m ((c : Thread nD τ).loc main_arg2)) (m ((c : Thread nD τ).loc main_arg3))

/-- The array the run leaves is the layer's output. -/
theorem G4_eq (c : Dev nD) : Value.G4 m c = result m c := by
  funext i
  obtain ⟨e, r, d, rfl⟩ : ∃ (e : Fin 8) (r : Fin 1024) (d : Fin 2048), i = ix3 e r d := ⟨i 0, i 1, i 2, eq_ix3 i⟩
  have he := e.isLt
  have hr := r.isLt
  have hd := d.isLt
  have hN : cfg0.N = 352 := N_0
  have hrun : Value.run4Of (ix3 e r d) = e.val := by
    show 1 * (e.val / 1 - 0) + 1 * (r.val / 1024 - 0) + 1 * (d.val / 2048 - 0) = e.val
    have h1 : r.val / 1024 = 0 := by omega
    have h2 : d.val / 2048 = 0 := by omega
    omega
  have hbound : 44 * e.val + 43 < cfg0.N := by rw [hN]; omega
  have same : ∀ (b : ℕ) (h : b + 43 < cfg0.N), b = 44 * e.val →
      Pipeline.accAt (Value.reset4 m c) (Value.step4 m c) b 43 h
        = Pipeline.accAt (Value.reset4 m c) (Value.step4 m c) (44 * e.val) 43 hbound := by
    intro b h hb; subst hb; rfl
  unfold Value.G4
  rw [dif_pos (by rw [hrun]; exact hbound), same _ _ (by rw [hrun]), fold_eq m c e hbound]
  have hloc : Value.loc4Of (ix3 e r d) = ix3 (0 : Fin 1) r d := by
    funext a; apply Fin.ext
    match a with
    | ⟨0, _⟩ => show e.val % 1 = 0; omega
    | ⟨1, _⟩ => show r.val % 1024 = r.val; omega
    | ⟨2, _⟩ => show d.val % 2048 = d.val; omega
  rw [hloc]
  show _ = ∑ h : Fin 5632, Cert.SwiGlu.hidden _ _ _ e r h * m ((c : Thread nD τ).loc main_arg3) (ix3 e h d)
  have hsum : (∑ h : Fin 5632, Cert.SwiGlu.hidden (m ((c : Thread nD τ).loc main_arg0)) (m ((c : Thread nD τ).loc main_arg1))
        (m ((c : Thread nD τ).loc main_arg2)) e r h * m ((c : Thread nD τ).loc main_arg3) (ix3 e h d))
      = ∑ h : Fin 5632, summand m c e r d h.val :=
    Finset.sum_congr rfl fun h _ => by unfold summand; rw [dif_pos h.isLt]
  rw [hsum, Cert.SwiGlu.sum_hidden_slabs]
  exact Finset.sum_congr rfl fun s hs => addend_eq m c e s (Finset.mem_range.mp hs) 0 r d

end Cert.KernelIdeal.Ffn

end
-- ==== Proof.ReferenceFfn.lean ====
/-
  The reference computes the same layer.  Its last operation is a batched product of the gated activations [8,1024,5632]
  with the down-projection, contracted over all 5632 hidden units at once; the activations are the elementwise
  `y₁ · (1 / (1 + exp(−y₁))) · y₂` of two batched products of the tokens with the up-projections.  Over the extended reals a
  batched product is the sum over its contracted axis, the literal `1.0` is the real one, and
  `1 / (1 + exp(−y))` is the logistic function by definition, so index by index the result is `Cert.SwiGlu.ffn`.
-/
import proofs.«134888_j30545807409458_2_alg».proof.Proof.Gen.ReferenceIdeal.Read
import proofs.«134888_j30545807409458_2_alg».proof.Proof.SwiGluSpec
import Idealize.ShloMosaic.Lib.ValueIdx
import Idealize.ShloMosaic.Lib.IdealHost
import Idealize.ShloMosaic.PureOps.Ideal.Laws

noncomputable section

namespace Cert.ReferenceIdeal.Ffn

open Cert.ReferenceIdeal Cert.ReferenceIdeal.Gen Cert.ReferenceIdeal.Read Idealize.ShloMosaic Idealize.ShloMosaic.ValueIdx

/-- The reference's elementwise gate of the two up-projections' entries is `Cert.SwiGlu.gate`: its quotient
    `1 / (1 + exp(−y₁))` is the logistic function. -/
theorem gate_eq (y1 y2 : EReal) :
    FloatOps.mulf (F := Ideal) (φ := .f32)
      (FloatOps.mulf y1 (FloatOps.hostDivf (FloatOps.ofBits .f32 0x3F800000#32)
        (FloatOps.addf (FloatOps.ofBits .f32 0x3F800000#32) (FloatOps.hostUnary .exp (FloatOps.hostNegf y1))))) y2
      = Cert.SwiGlu.gate y1 y2 := by
  unfold Cert.SwiGlu.gate Ideal.logistic
  simp only [Ideal.ofBits_def, Ideal.ofBits_one_f32]
  rfl

/-- The reference's result, index by index, is the layer's output of its four arguments. -/
theorem result_eq (X : (⟨S8x1024x2048, .f32⟩ : BufTy).Contents (Elt Ideal)) (W1 W2 : (⟨S8x2048x5632, .f32⟩ : BufTy).Contents (Elt Ideal))
    (W3 : (⟨S8x5632x2048, .f32⟩ : BufTy).Contents (Elt Ideal)) :
    val_main_v4 (F := Ideal) X W1 W2 W3 = Cert.SwiGlu.ffn X W1 W2 W3 := by
  funext i
  obtain ⟨e, r, d, rfl⟩ : ∃ (e : Fin 8) (r : Fin 1024) (d : Fin 2048), i = ix3 e r d := ⟨i 0, i 1, i 2, eq_ix3 i⟩
  rw [val_main_v4_apply]
  unfold Cert.SwiGlu.ffn
  refine Finset.sum_congr rfl fun h _ => ?_
  have el : lidx_main_v4 (ix3 e r d) h = ix3 e r h :=
    funext fun a => Fin.ext (by match a with | ⟨0, _⟩ => rfl | ⟨1, _⟩ => rfl | ⟨2, _⟩ => rfl)
  have er : ridx_main_v4 (ix3 e r d) h = ix3 e h d :=
    funext fun a => Fin.ext (by match a with | ⟨0, _⟩ => rfl | ⟨1, _⟩ => rfl | ⟨2, _⟩ => rfl)
  have el0 : ∀ k : Fin 2048, lidx_main_v0 (ix3 e r h) k = ix3 e r k := fun k =>
    funext fun a => Fin.ext (by match a with | ⟨0, _⟩ => rfl | ⟨1, _⟩ => rfl | ⟨2, _⟩ => rfl)
  have er0 : ∀ k : Fin 2048, ridx_main_v0 (ix3 e r h) k = ix3 e k h := fun k =>
    funext fun a => Fin.ext (by match a with | ⟨0, _⟩ => rfl | ⟨1, _⟩ => rfl | ⟨2, _⟩ => rfl)
  have el1 : ∀ k : Fin 2048, lidx_main_v1 (ix3 e r h) k = ix3 e r k := fun k =>
    funext fun a => Fin.ext (by match a with | ⟨0, _⟩ => rfl | ⟨1, _⟩ => rfl | ⟨2, _⟩ => rfl)
  have er1 : ∀ k : Fin 2048, ridx_main_v1 (ix3 e r h) k = ix3 e k h := fun k =>
    funext fun a => Fin.ext (by match a with | ⟨0, _⟩ => rfl | ⟨1, _⟩ => rfl | ⟨2, _⟩ => rfl)
  rw [el, er, val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, val_main_v0_apply, val_main_v1_apply, gate_eq]
  simp only [el0, er0, el1, er1]
  rfl

end Cert.ReferenceIdeal.Ffn

end
-- ==== Proof.lean ====
/-
  A per-expert gated feed-forward layer, fused into one pipelined kernel, against its plain reference.

  For expert `e`, token `t`, model coordinate `d` the layer is
    out[e,t,d] = Σ_h ( y₁ · σ(y₁) · y₂ )[e,t,h] · W₃[e,h,d],   y₁ = Σ_k X[e,t,k]·W₁[e,k,h],   y₂ = Σ_k X[e,t,k]·W₂[e,k,h],
  with `σ` the logistic function (`Cert.SwiGlu.ffn`, Proof/SwiGluSpec.lean).

  The kernel walks a grid of 8 experts × 44 slabs of 128 hidden units.  At a slab it forms the two up-projections of the
  expert's 1024 tokens onto the slab's 128 units, gates them, and adds their product with the slab's 128 rows of the
  down-projection into the expert's output block, which it zeroed at the expert's first slab; the roundings to bf16 on the way
  into each matrix product are the identity over the extended reals.  So expert `e`'s block ends as
  `0 + Σ_{s<44} Σ_{j<128}` of the summands of the hidden units `128s + j` (Proof/SlabTerm.lean, Proof/KernelFfn.lean).
  The reference contracts all 5632 hidden units in one batched product and spells `σ(y)` as `1 / (1 + exp(−y))`, which is
  the logistic function by definition (Proof/ReferenceFfn.lean).  The two sides differ only in how the sum over the hidden
  units is grouped, and addition of extended reals is commutative and associative: no finiteness of the inputs is used.

  The frames are the generated runs with the results dropped; nothing was rewritten on the way to the idealized kernel, so
  that conjunct is trivial.
-/
import proofs.«134888_j30545807409458_2_alg».proof.Defs
import proofs.«134888_j30545807409458_2_alg».proof.Proof.Gen.Kernel.Frame
import proofs.«134888_j30545807409458_2_alg».proof.Proof.Gen.KernelIdeal.Value
import proofs.«134888_j30545807409458_2_alg».proof.Proof.Gen.Pre_finite_inputs
import proofs.«134888_j30545807409458_2_alg».proof.Proof.Gen.ReferenceIdeal.Run
import proofs.«134888_j30545807409458_2_alg».proof.Proof.Gen.ReferenceIdeal.Read
import proofs.«134888_j30545807409458_2_alg».proof.Proof.KernelFfn
import proofs.«134888_j30545807409458_2_alg».proof.Proof.ReferenceFfn
import Idealize.ShloMosaic.Adequacy
import Idealize.ShloMosaic.Init

noncomputable section

namespace Cert.Proof

open Idealize.ShloMosaic Idealize.SL.Sem

/-- The idealized kernel terminates without a fault and leaves its arguments as they were: its value run, the result
    dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments both programs end with the layer's output of those arguments. -/
theorem algebraic_KernelIdeal_ReferenceIdeal : algebraic_KernelIdeal_ReferenceIdeal := by
  intro m ρ m' ρ' _ hagree
  refine ⟨fun c => Cert.KernelIdeal.Ffn.result m c, ?_, ?_⟩
  · exact (θ_run Cert.KernelIdeal.defs _ _).mono
      (fun _ h c => ⟨(h c).1.trans (Cert.KernelIdeal.Ffn.G4_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v4_eq, Cert.ReferenceIdeal.Ffn.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
